-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x512 : Shape := ⟨2, ![5000, 512]⟩
abbrev S5000x128 : Shape := ⟨2, ![5000, 128]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x40, .f32⟩
  | .hbm, ⟨66, _⟩ => ⟨S1700000x1, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x40, .f32⟩
  | .hbm, ⟨76, _⟩ => ⟨S1700000x40, .f32⟩
  | .hbm, ⟨77, _⟩ => ⟨S1700000x40, .f32⟩
  | .hbm, ⟨78, _⟩ => ⟨S_, .f32⟩
  | .hbm, ⟨79, _⟩ => ⟨S100000x40, .f32⟩
  | .hbm, ⟨80, _⟩ => ⟨S1700000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x512_S512x128_S5000x128_1_0_0_1_n_n_wf : DotDims.WF S5000x512 S512x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 129
  | .vmem => 0
  | .smem => 0
  | _ => 0

abbrev hbmTy0_0 (i : Nat) : BufTy := match i % 128 with
  | 0 => ⟨S100000x512, .f32⟩
  | 1 => ⟨S2x1600000, .i32⟩
  | 2 => ⟨S512x128, .f32⟩
  | 3 => ⟨S128, .f32⟩
  | 4 => ⟨S128x40, .f32⟩
  | 5 => ⟨S40, .f32⟩
  | 6 => ⟨S100000x128, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S1700000x1, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x40, .f32⟩
  | 70 => ⟨S100000, .i32⟩
  | 71 => ⟨S1x1600000, .i32⟩
  | 72 => ⟨S1600000, .i32⟩
  | 73 => ⟨S1700000, .i32⟩
  | 74 => ⟨S1x1600000, .i32⟩
  | 75 => ⟨S1600000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S1700000x1, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x40, .f32⟩
  | 120 => ⟨S1700000x40, .f32⟩
  | 121 => ⟨S1700000x40, .f32⟩
  | 122 => ⟨S_, .f32⟩
  | 123 => ⟨S100000x40, .f32⟩
  | 124 => ⟨S1700000x1, .i32⟩
  | 125 => ⟨S100000x40, .f32⟩
  | 126 => ⟨S1x40, .f32⟩
  | 127 => ⟨S100000x40, .f32⟩
  | _ => ⟨S100000x512, .f32⟩

abbrev hbmTy0_1 (i : Nat) : BufTy := match i % 128 with
  | 0 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_17 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x512_S512x128_S100000x128_1_0_0_1_n_n_wf : DotDims.WF S100000x512 S512x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
/-
  The mathematics both programs compute: two graph-convolution layers over one edge list.

  An edge list e : i32[2, 1600000] gives message sources (row 0) and targets (row 1); every node also sends itself a
  message, so there are 1700000 messages: the 1600000 edges followed by the 100000 self-loops. The degree of a node
  is the number of messages it receives; a message from s to d carries the weight dinv(s) · dinv(d), where dinv is
  the inverse square root of the degree where the degree is positive and zero elsewhere. A layer multiplies the
  node features by a weight matrix, gathers each message's source row, scales it by the message's weight, adds the
  messages up at their targets, and adds a bias row; the first layer then takes the maximum with zero.

  Everything here is one composition of host operations, stated once and never opened by the proofs that use it:
  both programs apply these same operations, and differ only in how the two matrix products and the two bias steps
  are carried out.
-/
import proofs.«117723_j841813590223_1_alg».proof.ReferenceIdeal
import proofs.«117723_j841813590223_1_alg».proof.Proof.Gen.ReferenceIdeal

noncomputable section

namespace Cert.Gcn

open Idealize.ShloMosaic Idealize.SL.Sem Cert.ReferenceIdeal Cert.ReferenceIdeal.Gen

variable {F : FTy → Type} [FloatOps F]

/-- Row r of the edge list followed by the self-loops 0, 1, …, 99999. -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Row 1 of the edge list (the targets) followed by the self-loops. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node number counts from the end: n + 100000 where n < 0, n elsewhere. -/
def wrap (s : (⟨S1700000, .i32⟩ : BufTy).Contents (Elt F)) : (⟨S1700000, .i32⟩ : BufTy).Contents (Elt F) :=
  select (cmpi .slt s (broadcastInDim S1700000 ![] bcast_S_S1700000 (constantI S_ 32 0#32)))
    (addi s (broadcastInDim S1700000 ![] bcast_S_S1700000 (constantI S_ 32 100000#32))) s

/-- A vector of message numbers as a column of one-entry index vectors. -/
def col (s : (⟨S1700000, .i32⟩ : BufTy).Contents (Elt F)) : (⟨S1700000x1, .i32⟩ : BufTy).Contents (Elt F) :=
  broadcastInDim S1700000x1 ![0] bcast_S1700000_S1700000x1_0 s

/-- The degree of every node: one added at the target of every message. -/
def degOf (e : (⟨S2x1600000, .i32⟩ : BufTy).Contents (Elt F)) : FVec F S100000 .f32 :=
  Host.scatterAdd scatter_S100000_S1700000x1_S1700000_n_0_0_1
    (broadcastInDim S100000 ![] bcast_S_S100000 (constant S_ .f32 0x00000000#32))
    (col (dstOf e))
    (broadcastInDim S1700000 ![] bcast_S_S1700000 (constant S_ .f32 0x3F800000#32))

/-- The inverse square root of the degree where it is positive, zero elsewhere. -/
def dinvOf (e : (⟨S2x1600000, .i32⟩ : BufTy).Contents (Elt F)) : FVec F S100000 .f32 :=
  select (cmpf .ogt (degOf e) (broadcastInDim S100000 ![] bcast_S_S100000 (constant S_ .f32 0x00000000#32)))
    (Host.rsqrt (degOf e))
    (broadcastInDim S100000 ![] bcast_S_S100000 (constant S_ .f32 0x00000000#32))

/-- The weight of every message: dinv at its source times dinv at its target. -/
def normOf (e : (⟨S2x1600000, .i32⟩ : BufTy).Contents (Elt F)) : FVec F S1700000 .f32 :=
  mulf (Host.gather gather_S100000_S1700000x1_S1700000_n_0_n_n_0_1_1 (dinvOf e) (col (wrap (srcOf e))))
    (Host.gather gather_S100000_S1700000x1_S1700000_n_0_n_n_0_1_1 (dinvOf e) (col (wrap (dstOf e))))

/-- One aggregation of 128-wide rows: every message's source row, scaled by the message's weight, added at its target. -/
def agg128 (h : FVec F S100000x128 .f32) (e : (⟨S2x1600000, .i32⟩ : BufTy).Contents (Elt F)) : FVec F S100000x128 .f32 :=
  Host.scatterAdd scatter_S100000x128_S1700000x1_S1700000x128_1_0_0_1
    (broadcastInDim S100000x128 ![] bcast_S_S100000x128 (constant S_ .f32 0x00000000#32))
    (col (dstOf e))
    (mulf (broadcastInDim S1700000x128 ![0, 1] bcast_S1700000x1_S1700000x128_0_1
            (broadcastInDim S1700000x1 ![0] bcast_S1700000_S1700000x1_0 (normOf e)))
      (Host.gather gather_S100000x128_S1700000x1_S1700000x128_1_0_n_n_0_1_1128 h (col (wrap (srcOf e)))))

/-- The same aggregation of 40-wide rows. -/
def agg40 (h : FVec F S100000x40 .f32) (e : (⟨S2x1600000, .i32⟩ : BufTy).Contents (Elt F)) : FVec F S100000x40 .f32 :=
  Host.scatterAdd scatter_S100000x40_S1700000x1_S1700000x40_1_0_0_1
    (broadcastInDim S100000x40 ![] bcast_S_S100000x40 (constant S_ .f32 0x00000000#32))
    (col (dstOf e))
    (mulf (broadcastInDim S1700000x40 ![0, 1] bcast_S1700000x1_S1700000x40_0_1
            (broadcastInDim S1700000x1 ![0] bcast_S1700000_S1700000x1_0 (normOf e)))
      (Host.gather gather_S100000x40_S1700000x1_S1700000x40_1_0_n_n_0_1_140 h (col (wrap (srcOf e)))))

/-- The first layer's matrix product, [100000, 512] by [512, 128]. -/
def dense1 (x : FVec F S100000x512 .f32) (w : FVec F S512x128 .f32) : FVec F S100000x128 .f32 :=
  Host.dotGeneral dot_S100000x512_S512x128_S100000x128_1_0_0_1_n_n none x w

/-- The second layer's matrix product, [100000, 128] by [128, 40]. -/
def dense2 (a : FVec F S100000x128 .f32) (w : FVec F S128x40 .f32) : FVec F S100000x40 .f32 :=
  Host.dotGeneral dot_S100000x128_S128x40_S100000x40_1_0_0_1_n_n none a w

/-- A bias vector as a one-row matrix. -/
def row128 (b : FVec F S128 .f32) : FVec F S1x128 .f32 := broadcastInDim S1x128 ![1] bcast_S128_S1x128_1 b
def row40 (b : FVec F S40 .f32) : FVec F S1x40 .f32 := broadcastInDim S1x40 ![1] bcast_S40_S1x40_1 b

/-- The first layer's bias row added to every row, then the maximum with zero. -/
def biasRelu (a : FVec F S100000x128 .f32) (b : FVec F S1x128 .f32) : FVec F S100000x128 .f32 :=
  maximumf (addf a (broadcastInDim S100000x128 ![0, 1] bcast_S1x128_S100000x128_0_1 b))
    (broadcastInDim S100000x128 ![] bcast_S_S100000x128 (constant S_ .f32 0x00000000#32))

/-- The second layer's bias row added to every row. -/
def bias2 (a : FVec F S100000x40 .f32) (b : FVec F S1x40 .f32) : FVec F S100000x40 .f32 :=
  addf a (broadcastInDim S100000x40 ![0, 1] bcast_S1x40_S100000x40_0_1 b)

/-- The two layers. -/
def out (x : FVec F S100000x512 .f32) (e : (⟨S2x1600000, .i32⟩ : BufTy).Contents (Elt F)) (w1 : FVec F S512x128 .f32)
    (b1 : FVec F S128 .f32) (w2 : FVec F S128x40 .f32) (b2 : FVec F S40 .f32) : FVec F S100000x40 .f32 :=
  bias2 (agg40 (dense2 (biasRelu (agg128 (dense1 x w1) e) (row128 b1)) w2) e) (row40 b2)

end Cert.Gcn

end
-- ==== Proof.KernelHost.lean ====
/-
  The host side of the idealized kernel's run: what the buffers hold at the boundaries between its segments.

  The boundary contents are a fold from the launch memory through five stretches of host operations and four
  regions. Read at the buffers that matter, the fold says: the message sources, targets and weights are the
  specification's functions of the edge list, computed once before the first matrix product and never written
  again; each argument array is still what it was at launch wherever it is read; and each of the two later
  stretches is the specification's aggregation of the preceding matrix product's result, beside the bias vector
  reshaped to a row.
-/
import proofs.«117723_j841813590223_1_alg».proof.Proof.Gen.KernelIdeal.Frame
import proofs.«117723_j841813590223_1_alg».proof.Proof.Spec
import Idealize.ShloMosaic.Lib.StableHlo.Run
import Idealize.ShloMosaic.Lib.Pipeline.Value

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A buffer none of a stretch's operations writes keeps its contents through the stretch. -/
macro "not_written" : tactic =>
  `(tactic| (refine StableHlo.after_of_forall_not_mem _ _ (List.forall_iff_forall_mem.mp ?_)
             simp only [hostOps0, hostOps0_1, hostOps0_2, hostOps1, hostOps3, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## A vector as a one-row matrix: the reshape and the broadcast along axis 1 are the same array -/

theorem shapeCast_row {α : Type} (n : Nat) (hn : n ≠ 1) (b : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ b h = broadcastInDim ⟨2, ![1, n]⟩ ![1] h' b := by
  funext j
  refine (shapeCast_addUnit_apply ![n] b h j).trans (broadcastInDim_apply ![1] h' b j _ ?_).symm
  intro a
  have ha : a = 0 := Subsingleton.elim _ _
  subst ha
  show (j (Fin.succ 0)).val = if (![n] 0) = 1 then 0 else (j (![1] 0)).val
  rw [if_neg (show ¬ ((![n] : Fin 1 → ℕ) 0 = 1) from hn)]
  rfl

/-! ## The edge list's three derived vectors, before the first matrix product

The first stretch builds the message sources and targets and the degree; the second (the select of the inverse
square root) and the third (the two gathers and their product) finish the message weights. None of the three is
written again, so each keeps its contents to the end. -/

theorem W1_v3 (c : Dev nD) : W1 m ρ c (Proc.devRef .tc main_v3) = Cert.Gcn.srcOf (m ((c : Thread nD τ).loc main_arg1)) := by
  show StableHlo.after hostOps0 (W0 m ρ c) (Proc.devRef .tc main_v3) = _
  after_results
  rfl

theorem W1_v6 (c : Dev nD) : W1 m ρ c (Proc.devRef .tc main_v6) = Cert.Gcn.dstOf (m ((c : Thread nD τ).loc main_arg1)) := by
  show StableHlo.after hostOps0 (W0 m ρ c) (Proc.devRef .tc main_v6) = _
  after_results
  rfl

theorem W3_v3 (c : Dev nD) : W3 m ρ c (Proc.devRef .tc main_v3) = Cert.Gcn.srcOf (m ((c : Thread nD τ).loc main_arg1)) :=
  calc W3 m ρ c (Proc.devRef .tc main_v3)
    _ = W2 m ρ c (Proc.devRef .tc main_v3) := by not_written
    _ = W1 m ρ c (Proc.devRef .tc main_v3) := by not_written
    _ = _ := W1_v3 m ρ c

theorem W3_v6 (c : Dev nD) : W3 m ρ c (Proc.devRef .tc main_v6) = Cert.Gcn.dstOf (m ((c : Thread nD τ).loc main_arg1)) :=
  calc W3 m ρ c (Proc.devRef .tc main_v6)
    _ = W2 m ρ c (Proc.devRef .tc main_v6) := by not_written
    _ = W1 m ρ c (Proc.devRef .tc main_v6) := by not_written
    _ = _ := W1_v6 m ρ c

set_option maxHeartbeats 4000000 in
theorem W3_v29 (c : Dev nD) : W3 m ρ c (Proc.devRef .tc main_v29) = Cert.Gcn.normOf (m ((c : Thread nD τ).loc main_arg1)) := by
  show StableHlo.after hostOps0_2 (StableHlo.after hostOps0_1 (StableHlo.after hostOps0 (W0 m ρ c))) (Proc.devRef .tc main_v29) = _
  after_results_simp
  rfl

/-! ## The same three vectors at the later boundaries -/

theorem W4_v3 (c : Dev nD) : W4 m ρ c (Proc.devRef .tc main_v3) = Cert.Gcn.srcOf (m ((c : Thread nD τ).loc main_arg1)) :=
  (W4_of_ne m ρ c main_v3 (by decide)).trans (W3_v3 m ρ c)
theorem W4_v6 (c : Dev nD) : W4 m ρ c (Proc.devRef .tc main_v6) = Cert.Gcn.dstOf (m ((c : Thread nD τ).loc main_arg1)) :=
  (W4_of_ne m ρ c main_v6 (by decide)).trans (W3_v6 m ρ c)
theorem W4_v29 (c : Dev nD) : W4 m ρ c (Proc.devRef .tc main_v29) = Cert.Gcn.normOf (m ((c : Thread nD τ).loc main_arg1)) :=
  (W4_of_ne m ρ c main_v29 (by decide)).trans (W3_v29 m ρ c)

theorem W7_v3 (c : Dev nD) : W7 m ρ c (Proc.devRef .tc main_v3) = Cert.Gcn.srcOf (m ((c : Thread nD τ).loc main_arg1)) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by not_written
    _ = _ := W4_v3 m ρ c
theorem W7_v6 (c : Dev nD) : W7 m ρ c (Proc.devRef .tc main_v6) = Cert.Gcn.dstOf (m ((c : Thread nD τ).loc main_arg1)) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by not_written
    _ = _ := W4_v6 m ρ c
theorem W7_v29 (c : Dev nD) : W7 m ρ c (Proc.devRef .tc main_v29) = Cert.Gcn.normOf (m ((c : Thread nD τ).loc main_arg1)) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by not_written
    _ = _ := W4_v29 m ρ c

/-! ## The argument arrays where a region or a stretch reads them: still the launch contents -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by not_written
    _ = W1 m ρ c (Proc.devRef .tc main_arg0) := by not_written
    _ = W0 m ρ c (Proc.devRef .tc main_arg0) := by not_written
    _ = _ := rfl
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by not_written
    _ = W1 m ρ c (Proc.devRef .tc main_arg2) := by not_written
    _ = W0 m ρ c (Proc.devRef .tc main_arg2) := by not_written
    _ = _ := rfl
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by not_written
    _ = W1 m ρ c (Proc.devRef .tc main_arg3) := by not_written
    _ = W0 m ρ c (Proc.devRef .tc main_arg3) := by not_written
    _ = _ := rfl
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by not_written
    _ = W3 m ρ c (Proc.devRef .tc main_arg4) := W4_of_ne m ρ c main_arg4 (by decide)
    _ = W2 m ρ c (Proc.devRef .tc main_arg4) := by not_written
    _ = W1 m ρ c (Proc.devRef .tc main_arg4) := by not_written
    _ = W0 m ρ c (Proc.devRef .tc main_arg4) := by not_written
    _ = _ := rfl
theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by not_written
    _ = W3 m ρ c (Proc.devRef .tc main_arg5) := W4_of_ne m ρ c main_arg5 (by decide)
    _ = W2 m ρ c (Proc.devRef .tc main_arg5) := by not_written
    _ = W1 m ρ c (Proc.devRef .tc main_arg5) := by not_written
    _ = W0 m ρ c (Proc.devRef .tc main_arg5) := by not_written
    _ = _ := rfl

/-! ## The two aggregation stretches -/

/-- After the first matrix product: the aggregate of its result over the messages, and the first bias as a row. -/
theorem W5_v43 (c : Dev nD) : W5 m ρ c (Proc.devRef .tc main_v43)
    = Cert.Gcn.agg128 (W4 m ρ c (Proc.devRef .tc main_v30)) (m ((c : Thread nD τ).loc main_arg1)) := by
  show StableHlo.after hostOps1 (W4 m ρ c) (Proc.devRef .tc main_v43) = _
  after_results
  rw [W4_v3 m ρ c, W4_v6 m ρ c, W4_v29 m ρ c]
  rfl

theorem W5_v44 (c : Dev nD) : W5 m ρ c (Proc.devRef .tc main_v44) = Cert.Gcn.row128 (m ((c : Thread nD τ).loc main_arg3)) := by
  show StableHlo.after hostOps1 (W4 m ρ c) (Proc.devRef .tc main_v44) = _
  after_results
  rw [W4_arg3 m ρ c]
  exact shapeCast_row 128 (by decide) _ _ _

/-- After the second matrix product: the aggregate of its result, and the second bias as a row. -/
theorem W8_v59 (c : Dev nD) : W8 m ρ c (Proc.devRef .tc main_v59)
    = Cert.Gcn.agg40 (W7 m ρ c (Proc.devRef .tc main_v46)) (m ((c : Thread nD τ).loc main_arg1)) := by
  show StableHlo.after hostOps3 (W7 m ρ c) (Proc.devRef .tc main_v59) = _
  after_results
  rw [W7_v3 m ρ c, W7_v6 m ρ c, W7_v29 m ρ c]
  rfl

theorem W8_v60 (c : Dev nD) : W8 m ρ c (Proc.devRef .tc main_v60) = Cert.Gcn.row40 (m ((c : Thread nD τ).loc main_arg5)) := by
  show StableHlo.after hostOps3 (W7 m ρ c) (Proc.devRef .tc main_v60) = _
  after_results
  rw [W7_arg5 m ρ c]
  exact shapeCast_row 40 (by decide) _ _ _

end Cert.KernelIdeal.Whole

end
-- ==== Proof.KernelRun.lean ====
/-
  The idealized kernel's run with its result named.

  The program is nine segments: three stretches of host operations, the first matrix product, a stretch of host
  operations, the bias step and the second matrix product back to back, a stretch of host operations, the last
  bias step. The buffer contents at each boundary are a fold from the launch memory; this module reads the final
  state against the LAST boundary's contents at the result buffer as well as at the six argument buffers, so that
  the result array after any run is the fold's value there, and the arguments end as launched.
-/
import proofs.«117723_j841813590223_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents, and each argument buffer what it held at launch. -/
theorem run_named : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.LibPlainMatmul.lean ====
/-
  A plain matrix product read entry by entry over the extended reals.

  For the dimension numbers of an ordinary product, [M, K] by [K, N] with the left operand contracted on its
  second axis and the right operand on its first, the product accumulated into the zero array has at
  row p and column q the sum over k of (left at (p, k)) times (right at (k, q)). The contraction index of such a
  product has one coordinate, which ranges over K.
-/
import Idealize.ShloMosaic.PureOps.Ideal.Laws
import Idealize.ShloMosaic.Lib.ValueIdx

namespace Cert.Lib.PlainMatmul

open Idealize.ShloMosaic Idealize.ShloMosaic.ValueIdx

variable {M K N : ℕ}

/-- An ordinary product contracts one axis. -/
theorem rank_contr : (DotDims.plain M K N).contr.rank = 1 := rfl

/-- The contracted axis has K positions. -/
theorem size_contr : (DotDims.plain M K N).contr.size ⟨0, by rw [rank_contr]; exact Nat.one_pos⟩ = K := rfl

/-- The contraction positions are the numbers below K. -/
noncomputable abbrev pos : (DotDims.plain M K N).contr.Idx ≃ Fin K :=
  contrEquiv1 (DotDims.plain M K N) K rank_contr size_contr

/-- At output entry (p, q) and contraction position k the left operand is read at (p, k). -/
theorem lhsIdx_eq (p : Fin M) (q : Fin N) (k : Fin K) :
    (DotDims.plain M K N).lhsIdx (ix2 p q) (pos.symm k) = ix2 p k := by
  funext a
  apply Fin.ext
  match a with
  | ⟨0, _⟩ =>
    simp [DotDims.lhsIdx, DotDims.plain]
    rfl
  | ⟨1, _⟩ =>
    refine (DotDims.lhsIdx_val_of_single (DotDims.plain M K N) (cl := (1 : Fin 2)) rfl (ix2 p q) (pos.symm k)).trans ?_
    exact contrEquiv1_symm_val (DotDims.plain M K N) K rank_contr size_contr k

/-- At output entry (p, q) and contraction position k the right operand is read at (k, q). -/
theorem rhsIdx_eq (p : Fin M) (q : Fin N) (k : Fin K) :
    (DotDims.plain M K N).rhsIdx (ix2 p q) (pos.symm k) = ix2 k q := by
  funext a
  apply Fin.ext
  match a with
  | ⟨0, _⟩ =>
    refine (DotDims.rhsIdx_val_of_single (DotDims.plain M K N) (cr := (0 : Fin 2)) rfl (ix2 p q) (pos.symm k)).trans ?_
    exact contrEquiv1_symm_val (DotDims.plain M K N) K rank_contr size_contr k
  | ⟨1, _⟩ =>
    simp [DotDims.rhsIdx, DotDims.plain]
    rfl

/-- The product into the zero array, at entry (p, q), is the sum over k of the products of the operands' entries
    (p, k) and (k, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (pos (M := M) (K := K) (N := N)).symm]
  exact Finset.sum_congr rfl fun k _ => by rw [lhsIdx_eq, rhsIdx_eq]

end Cert.Lib.PlainMatmul
-- ==== Proof.LibPlainDotGeneral.lean ====
/-
  A host's plain matrix product read entry by entry over the extended reals.

  For the dimension numbers of an ordinary product, [M, K] by [K, N], the host's general dot product has at row p and
  column q the sum over k of (left at (p, k)) times (right at (k, q)), whatever precision and schedule it is stated
  under.
-/
import proofs.«117723_j841813590223_1_alg».proof.Proof.LibPlainMatmul

namespace Cert.Lib.PlainDotGeneral

open Idealize.ShloMosaic Idealize.ShloMosaic.ValueIdx Cert.Lib.PlainMatmul

variable {M K N : ℕ}

/-- The host's product at entry (p, q) is the sum over k of the products of the operands' entries (p, k) and (k, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply, ← Equiv.sum_comp (pos (M := M) (K := K) (N := N)).symm]
  exact Finset.sum_congr rfl fun k _ => by rw [lhsIdx_eq, rhsIdx_eq]

end Cert.Lib.PlainDotGeneral
-- ==== Proof.DenseRegions.lean ====
/-
  The two matrix-product regions, read as whole arrays over the extended reals.

  Each region walks 20 steps; step t reads rows 5000 t … 5000 t + 4999 of the left operand (full width) and the whole
  right operand, multiplies them into a zero accumulator, and writes the result to rows 5000 t … 5000 t + 4999 of the
  output. Over the extended reals the narrowing of the operands to a shorter format is the identity, so entry (r, j)
  of what step t writes is the sum over k of left(5000 t + r, k) · right(k, j): entry (5000 t + r, j) of the whole
  product. The 20 row blocks tile the 100000 rows, so after the last step the output array is the whole product.
-/
import proofs.«117723_j841813590223_1_alg».proof.Proof.Gen.KernelIdeal.Frame
import proofs.«117723_j841813590223_1_alg».proof.Proof.Spec
import proofs.«117723_j841813590223_1_alg».proof.Proof.LibPlainMatmul
import proofs.«117723_j841813590223_1_alg».proof.Proof.LibPlainDotGeneral
import Idealize.ShloMosaic.Lib.Pipeline.Value
import Idealize.ShloMosaic.Lib.ValueIdx
import Idealize.ShloMosaic.PureOps.Ideal.Laws

noncomputable section

namespace Cert.KernelIdeal.Closed

open Cert.KernelIdeal Cert.KernelIdeal.Gen Idealize.ShloMosaic Idealize.ShloMosaic.TcCoe Idealize.SL.Sem
open Idealize.ShloMosaic.ValueIdx
open Idealize.ShloMosaic.Pipeline (Dat)

/-- The offset vector (0, 0) is the constant zero. -/
theorem zeroOffsets : (![0, 0] : Fin 2 → Nat) = fun _ => 0 := funext fun a => by fin_cases a <;> rfl

/-! ## The first product: [100000, 512] by [512, 128] -/

/-- What one step computes from its two blocks: entry (p, q) is the sum over k of left(p, k) · right(k, q). -/
theorem pay0_apply (x0 : Vec Ideal S5000x512 .f32) (x1 : Vec Ideal S512x128 .f32) (p : Fin 5000) (q : Fin 128) :
    k0_pay1 (F := Ideal) x0 x1 (ix2 p q) = ∑ k : Fin 512, x0 (ix2 p k) * x1 (ix2 k q) := by
  unfold k0_pay1
  exact Cert.Lib.PlainMatmul.matmul_zero_apply (M := 5000) (K := 512) (N := 128) none x0 x1 p q

/-- The whole product at entry (p, q): the sum over k of x(p, k) · w(k, q). -/
theorem dense1_apply (x : FVec Ideal S100000x512 .f32) (w : FVec Ideal S512x128 .f32) (p : Fin 100000) (q : Fin 128) :
    Cert.Gcn.dense1 (F := Ideal) x w (ix2 p q) = ∑ k : Fin 512, x (ix2 p k) * w (ix2 k q) := by
  unfold Cert.Gcn.dense1 Host.dotGeneral
  exact Cert.Lib.PlainDotGeneral.dotGeneral_apply (M := 100000) (K := 512) (N := 128) none _ x w p q

/-- The block indices at step t: the left operand's and the output's row block is t, every column block is 0, and
    the right operand's block is always (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b)) (c : Dev nD)

/-- Row p of the left operand's block at step t is row 5000 t + p of the array. -/
theorem iblk0_0_apply (t : Fin cfg0.N) (p : Fin 5000) (k : Fin 512) (P : Fin 100000) (hP : P.val = 5000 * t.val + p.val) :
    (iblk0 V c 0 t : Vec Ideal S5000x512 .f32) (ix2 p k) = (V c main_arg0 : S100000x512.Idx → Elt Ideal .f32) (ix2 P k) := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = P.val; rw [e0, hP]; omega
  | ⟨1, _⟩ => show win0_0.index t (1 : Fin 2) * 512 + 1 * k.val = k.val; rw [e1]; omega

/-- The right operand's block at every step is the whole array. -/
theorem iblk0_1_apply (t : Fin cfg0.N) (k : Fin 512) (q : Fin 128) :
    (iblk0 V c 1 t : Vec Ideal S512x128 .f32) (ix2 k q) = (V c main_arg2 : S512x128.Idx → Elt Ideal .f32) (ix2 k q) := by
  obtain ⟨-, -, e0, e1, -, -⟩ := idx_facts0 t
  unfold iblk0
  rw [View.read_apply]
  show V c main_arg2 _ = V c main_arg2 _
  congr 1
  funext a
  apply Fin.ext
  match a with
  | ⟨0, _⟩ => show win0_1.index t (0 : Fin 2) * 512 + 1 * k.val = k.val; rw [e0]; omega
  | ⟨1, _⟩ => show win0_1.index t (1 : Fin 2) * 128 + 1 * q.val = q.val; rw [e1]; omega

/-- Entry (p, q) of the output's block at step t sits at (5000 t + p, q) of the array. -/
theorem blk0_2_emb (t : Fin cfg0.N) (p : Fin 5000) (q : Fin 128) (P : Fin 100000) (hP : P.val = 5000 * t.val + p.val) :
    ((cfg0.win 2).blk t).view.emb (ix2 p q) = (ix2 P q : S100000x128.Idx) := by
  obtain ⟨-, -, -, -, e0, e1⟩ := idx_facts0 t
  funext a
  apply Fin.ext
  match a with
  | ⟨0, _⟩ => show win0_2.index t (0 : Fin 2) * 5000 + 1 * p.val = P.val; rw [e0, hP]; omega
  | ⟨1, _⟩ => show win0_2.index t (1 : Fin 2) * 128 + 1 * q.val = q.val; rw [e1]; omega

/-- What step t writes back is block t of the whole product. -/
theorem flushed0_eq (t : Fin cfg0.N) :
    (dat0 (F := Ideal) V c).flushed 2 t
      = ((cfg0.win 2).blk t).view.read (Elt Ideal) (Cert.Gcn.dense1 (F := Ideal) (V c main_arg0) (V c main_arg2)) := by
  show (cfg0.win 2).cut (grid0.coords t) ((dat0 (F := Ideal) V c).after 2 t) = _
  rw [after0_2]
  unfold out0_2
  rw [View.canon_unit_zero zeroOffsets]
  simp only [View.ld_unit_zero (S := S5000x512) zeroOffsets, View.ld_unit_zero (S := S512x128) zeroOffsets]
  funext j
  obtain ⟨p, q, rfl⟩ : ∃ (p : Fin 5000) (q : Fin 128), j = ix2 p q := ⟨j 0, j 1, eq_ix2 j⟩
  have ht : t.val < 20 := lt_of_lt_of_eq t.isLt N_0
  let P : Fin 100000 := ⟨5000 * t.val + p.val, by have := p.isLt; omega⟩
  show k0_pay1 (F := Ideal) (iblk0 V c 0 t) (iblk0 V c 1 t) (ix2 p q)
    = Cert.Gcn.dense1 (F := Ideal) (V c main_arg0) (V c main_arg2) (((cfg0.win 2).blk t).view.emb (ix2 p q))
  rw [blk0_2_emb t p q P rfl]
  refine (pay0_apply (iblk0 V c 0 t) (iblk0 V c 1 t) p q).trans ?_
  refine Eq.trans ?_ (dense1_apply (V c main_arg0) (V c main_arg2) P q).symm
  refine Finset.sum_congr rfl fun k _ => ?_
  rw [iblk0_0_apply V c t p k P rfl, iblk0_1_apply V c t k q]

/-- An index of the output array is in step t's block iff each coordinate is in the block's range on its axis. -/
theorem mem_blk0_2 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array is in some step's block: row r is in the block of step r / 5000. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, lt_of_lt_of_eq (by omega : (i 0).val / 5000 < 20) N_0.symm⟩
  obtain ⟨-, -, -, -, e0, e1⟩ := idx_facts0 t
  refine ⟨t, flush0_2 t, ?_⟩
  rw [mem_blk0_2]
  intro a
  match a with
  | ⟨0, _⟩ =>
    show win0_2.index t (0 : Fin 2) * 5000 ≤ (i 0).val ∧ (i 0).val < win0_2.index t (0 : Fin 2) * 5000 + 5000
    rw [e0]
    show (i 0).val / 5000 * 5000 ≤ (i 0).val ∧ (i 0).val < (i 0).val / 5000 * 5000 + 5000
    omega
  | ⟨1, _⟩ =>
    show win0_2.index t (1 : Fin 2) * 128 ≤ (i 1).val ∧ (i 1).val < win0_2.index t (1 : Fin 2) * 128 + 128
    rw [e1]
    omega

/-- After the 20 steps the output array is the whole product of the two arrays the region found. -/
theorem final0 : (dat0 (F := Ideal) V c).arrAt 2 cfg0.N = Cert.Gcn.dense1 (F := Ideal) (V c main_arg0) (V c main_arg2) :=
  (dat0 (F := Ideal) V c).arrAt_eq_of_cover 2 (Cert.Gcn.dense1 (F := Ideal) (V c main_arg0) (V c main_arg2))
    (fun t _ => flushed0_eq V c t) covered0

end

/-! ## The second product: [100000, 128] by [128, 40] -/

/-- What one step computes from its two blocks: entry (p, q) is the sum over k of left(p, k) · right(k, q)
    (the recast of the left block to its own shape is the identity). -/
theorem pay2_apply (x0 : Vec Ideal S5000x128 .f32) (x1 : Vec Ideal S128x40 .f32) (p : Fin 5000) (q : Fin 40) :
    k2_pay1 (F := Ideal) x0 x1 (ix2 p q) = ∑ k : Fin 128, x0 (ix2 p k) * x1 (ix2 k q) := by
  unfold k2_pay1
  rw [shapeCast_self]
  exact Cert.Lib.PlainMatmul.matmul_zero_apply (M := 5000) (K := 128) (N := 40) none x0 x1 p q

/-- The whole product at entry (p, q): the sum over k of a(p, k) · w(k, q). -/
theorem dense2_apply (x : FVec Ideal S100000x128 .f32) (w : FVec Ideal S128x40 .f32) (p : Fin 100000) (q : Fin 40) :
    Cert.Gcn.dense2 (F := Ideal) x w (ix2 p q) = ∑ k : Fin 128, x (ix2 p k) * w (ix2 k q) := by
  unfold Cert.Gcn.dense2 Host.dotGeneral
  exact Cert.Lib.PlainDotGeneral.dotGeneral_apply (M := 100000) (K := 128) (N := 40) none _ x w p q

/-- The block indices at step t: the left operand's and the output's row block is t, every column block is 0, and
    the right operand's block is always (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b)) (c : Dev nD)

/-- Row p of the left operand's block at step t is row 5000 t + p of the array. -/
theorem iblk2_0_apply (t : Fin cfg2.N) (p : Fin 5000) (k : Fin 128) (P : Fin 100000) (hP : P.val = 5000 * t.val + p.val) :
    (iblk2 V c 0 t : Vec Ideal S5000x128 .f32) (ix2 p k) = (V c main_v45 : S100000x128.Idx → Elt Ideal .f32) (ix2 P k) := by
  obtain ⟨e0, e1, -, -, -, -⟩ := idx_facts2 t
  unfold iblk2
  rw [View.read_apply]
  show V c main_v45 _ = V c main_v45 _
  congr 1
  funext a
  apply Fin.ext
  match a with
  | ⟨0, _⟩ => show win2_0.index t (0 : Fin 2) * 5000 + 1 * p.val = P.val; rw [e0, hP]; omega
  | ⟨1, _⟩ => show win2_0.index t (1 : Fin 2) * 128 + 1 * k.val = k.val; rw [e1]; omega

/-- The right operand's block at every step is the whole array. -/
theorem iblk2_1_apply (t : Fin cfg2.N) (k : Fin 128) (q : Fin 40) :
    (iblk2 V c 1 t : Vec Ideal S128x40 .f32) (ix2 k q) = (V c main_arg4 : S128x40.Idx → Elt Ideal .f32) (ix2 k q) := by
  obtain ⟨-, -, e0, e1, -, -⟩ := idx_facts2 t
  unfold iblk2
  rw [View.read_apply]
  show V c main_arg4 _ = V c main_arg4 _
  congr 1
  funext a
  apply Fin.ext
  match a with
  | ⟨0, _⟩ => show win2_1.index t (0 : Fin 2) * 128 + 1 * k.val = k.val; rw [e0]; omega
  | ⟨1, _⟩ => show win2_1.index t (1 : Fin 2) * 40 + 1 * q.val = q.val; rw [e1]; omega

/-- Entry (p, q) of the output's block at step t sits at (5000 t + p, q) of the array. -/
theorem blk2_2_emb (t : Fin cfg2.N) (p : Fin 5000) (q : Fin 40) (P : Fin 100000) (hP : P.val = 5000 * t.val + p.val) :
    ((cfg2.win 2).blk t).view.emb (ix2 p q) = (ix2 P q : S100000x40.Idx) := by
  obtain ⟨-, -, -, -, e0, e1⟩ := idx_facts2 t
  funext a
  apply Fin.ext
  match a with
  | ⟨0, _⟩ => show win2_2.index t (0 : Fin 2) * 5000 + 1 * p.val = P.val; rw [e0, hP]; omega
  | ⟨1, _⟩ => show win2_2.index t (1 : Fin 2) * 40 + 1 * q.val = q.val; rw [e1]; omega

/-- What step t writes back is block t of the whole product. -/
theorem flushed2_eq (t : Fin cfg2.N) :
    (dat2 (F := Ideal) V c).flushed 2 t
      = ((cfg2.win 2).blk t).view.read (Elt Ideal) (Cert.Gcn.dense2 (F := Ideal) (V c main_v45) (V c main_arg4)) := by
  show (cfg2.win 2).cut (grid2.coords t) ((dat2 (F := Ideal) V c).after 2 t) = _
  rw [after2_2]
  unfold out2_2
  rw [View.canon_unit_zero zeroOffsets]
  simp only [View.ld_unit_zero (S := S5000x128) zeroOffsets, View.ld_unit_zero (S := S128x40) zeroOffsets]
  funext j
  obtain ⟨p, q, rfl⟩ : ∃ (p : Fin 5000) (q : Fin 40), j = ix2 p q := ⟨j 0, j 1, eq_ix2 j⟩
  have ht : t.val < 20 := lt_of_lt_of_eq t.isLt N_2
  let P : Fin 100000 := ⟨5000 * t.val + p.val, by have := p.isLt; omega⟩
  show k2_pay1 (F := Ideal) (iblk2 V c 0 t) (iblk2 V c 1 t) (ix2 p q)
    = Cert.Gcn.dense2 (F := Ideal) (V c main_v45) (V c main_arg4) (((cfg2.win 2).blk t).view.emb (ix2 p q))
  rw [blk2_2_emb t p q P rfl]
  refine (pay2_apply (iblk2 V c 0 t) (iblk2 V c 1 t) p q).trans ?_
  refine Eq.trans ?_ (dense2_apply (V c main_v45) (V c main_arg4) P q).symm
  refine Finset.sum_congr rfl fun k _ => ?_
  rw [iblk2_0_apply V c t p k P rfl, iblk2_1_apply V c t k q]

/-- An index of the output array is in step t's block iff each coordinate is in the block's range on its axis. -/
theorem mem_blk2_2 (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v46).slice (win2_2.rect t)).set ↔ _
  rw [View.set_slice_whole, Rect.mem_set_unit]
  exact Iff.rfl

/-- Every index of the output array is in some step's block: row r is in the block of step r / 5000. -/
theorem covered2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  let t : Fin cfg2.N := ⟨(i 0).val / 5000, lt_of_lt_of_eq (by omega : (i 0).val / 5000 < 20) N_2.symm⟩
  obtain ⟨-, -, -, -, e0, e1⟩ := idx_facts2 t
  refine ⟨t, flush2_2 t, ?_⟩
  rw [mem_blk2_2]
  intro a
  match a with
  | ⟨0, _⟩ =>
    show win2_2.index t (0 : Fin 2) * 5000 ≤ (i 0).val ∧ (i 0).val < win2_2.index t (0 : Fin 2) * 5000 + 5000
    rw [e0]
    show (i 0).val / 5000 * 5000 ≤ (i 0).val ∧ (i 0).val < (i 0).val / 5000 * 5000 + 5000
    omega
  | ⟨1, _⟩ =>
    show win2_2.index t (1 : Fin 2) * 40 ≤ (i 1).val ∧ (i 1).val < win2_2.index t (1 : Fin 2) * 40 + 40
    rw [e1]
    omega

/-- After the 20 steps the output array is the whole product of the two arrays the region found. -/
theorem final2 : (dat2 (F := Ideal) V c).arrAt 2 cfg2.N = Cert.Gcn.dense2 (F := Ideal) (V c main_v45) (V c main_arg4) :=
  (dat2 (F := Ideal) V c).arrAt_eq_of_cover 2 (Cert.Gcn.dense2 (F := Ideal) (V c main_v45) (V c main_arg4))
    (fun t _ => flushed2_eq V c t) covered2

end

end Cert.KernelIdeal.Closed

end
-- ==== Proof.BiasRegions.lean ====
/-
  The two bias steps, block by block.

  Each of the two steps works on an array of 100000 rows in twenty blocks of 5000 rows. For block t it reads rows
  5000 t … 5000 t + 4999 of the array and the one bias row, and writes, at row r and column j of the block,
  a(5000 t + r, j) + b(0, j) — in the first layer the maximum of that and zero. Row 5000 t + r of the result is therefore
  the bias row added to row 5000 t + r of the array (and, in the first layer, cut off below at zero), which is what the
  whole-array operation gives at that row; and every row is in exactly one block, row i in block i / 5000. So after the
  twenty write-backs the array holds the whole-array result.
-/
import proofs.«117723_j841813590223_1_alg».proof.Proof.Gen.KernelIdeal.Frame
import proofs.«117723_j841813590223_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access, as the constant function. -/
theorem hz2 : (![0, 0] : Fin 2 → Nat) = fun _ => 0 := funext fun a => by fin_cases a <;> rfl

/-! ## Region 3: the second layer's bias row added to every row -/

/-- The body's payload at row p, column q of a block: the block's entry plus the bias row's entry in column q. -/
theorem pay3_apply (x0 : Vec Ideal S5000x40 .f32) (x1 : Vec Ideal S1x40 .f32) (p : Fin 5000) (q : Fin 40) :
    k3_pay1 (F := Ideal) x0 x1 (ix2 p q) = x0 (ix2 p q) + x1 (ix2 (0 : Fin 1) q) := by
  unfold k3_pay1
  rw [shapeCast_self, shapeCast_self, addf_apply]
  congr 1
  refine broadcastTo_apply x1 _ (ix2 p q) (ix2 (0 : Fin 1) q) fun a => ?_
  match a with
  | ⟨0, _⟩ => rfl
  | ⟨1, _⟩ => rfl

/-- The whole-array operation at row p, column q: the entry plus the bias row's entry in column q. -/
theorem bias2_apply (a : FVec Ideal S100000x40 .f32) (b : FVec Ideal S1x40 .f32) (p : Fin 100000) (q : Fin 40) :
    Cert.Gcn.bias2 (F := Ideal) a b (ix2 p q) = a (ix2 p q) + b (ix2 (0 : Fin 1) q) := by
  unfold Cert.Gcn.bias2
  rw [addf_apply]
  congr 1
  refine broadcastInDim_apply _ _ b (ix2 p q) (ix2 (0 : Fin 1) q) fun a => ?_
  match a with
  | ⟨0, _⟩ => rfl
  | ⟨1, _⟩ => rfl

/-- One entry of a written block against one entry of the whole-array result: they agree when the block's entry is the
    array's at that place, the places share their column, and the block's bias row is the array's. -/
theorem point3 (x0 : Vec Ideal S5000x40 .f32) (x1 : Vec Ideal S1x40 .f32) (a : FVec Ideal S100000x40 .f32) (b : FVec Ideal S1x40 .f32)
    (j : S5000x40.Idx) (i : S100000x40.Idx) (hq : (i 1).val = (j 1).val)
    (h0 : x0 j = a i) (h1 : ∀ q : Fin 40, x1 (ix2 (0 : Fin 1) q) = b (ix2 (0 : Fin 1) q)) :
    k3_pay1 (F := Ideal) x0 x1 j = Cert.Gcn.bias2 (F := Ideal) a b i := by
  obtain ⟨p, q, rfl⟩ : ∃ (p : Fin 5000) (q : Fin 40), j = ix2 p q := ⟨j 0, j 1, eq_ix2 j⟩
  obtain ⟨p', q', rfl⟩ : ∃ (p' : Fin 100000) (q' : Fin 40), i = ix2 p' q' := ⟨i 0, i 1, eq_ix2 i⟩
  obtain rfl : q' = q := Fin.ext hq
  rw [pay3_apply, bias2_apply, h0, h1]

/-- The index maps over the grid: the array's window and the result's window sit at block (t, 0), the bias row's at (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array result. -/
theorem flushed3_eq (c : Dev nD) (t : Fin cfg3.N) :
    (dat3 (F := Ideal) V c).flushed 2 t = ((cfg3.win 2).blk t).view.read (Elt Ideal) (Cert.Gcn.bias2 (F := Ideal) (V c main_v59) (V c main_v60)) := by
  show (cfg3.win 2).cut (grid3.coords t) ((dat3 V c).after 2 t) = _
  rw [after3_2]
  unfold out3_2
  rw [View.canon_unit_zero hz2]
  simp only [View.ld_unit_zero (S := S5000x40) hz2, View.ld_unit_zero (S := S1x40) hz2]
  obtain ⟨e0, e1, e2, e3, e4, e5⟩ := idx_facts3 t
  funext j
  show k3_pay1 (F := Ideal) (iblk3 V c 0 t) (iblk3 V c 1 t) j = Cert.Gcn.bias2 (F := Ideal) (V c main_v59) (V c main_v60) (((cfg3.win 2).blk t).view.emb j)
  refine point3 (iblk3 V c 0 t) (iblk3 V c 1 t) (V c main_v59) (V c main_v60) j (((cfg3.win 2).blk t).view.emb j) ?_ ?_ ?_
  · show win3_2.index t (1 : Fin 2) * 40 + 1 * (j 1).val = (j 1).val
    omega
  · show V c main_v59 (((cfg3.win 0).blk t).view.emb j) = V c main_v59 (((cfg3.win 2).blk t).view.emb j)
    refine congrArg (V c main_v59) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 40 + 1 * (j 1).val = win3_2.index t (1 : Fin 2) * 40 + 1 * (j 1).val; omega
  · intro q
    show V c main_v60 (((cfg3.win 1).blk t).view.emb (ix2 (0 : Fin 1) q)) = V c main_v60 (ix2 (0 : Fin 1) q)
    refine congrArg (V c main_v60) (funext fun a => Fin.ext ?_)
    match a with
    | ⟨0, _⟩ => show win3_1.index t (0 : Fin 2) * 1 + 1 * 0 = 0; omega
    | ⟨1, _⟩ => show win3_1.index t (1 : Fin 2) * 40 + 1 * q.val = q.val; omega

/-- An index of the array is in point t's block iff each coordinate is in the block's range on its axis. -/
theorem mem_blk3 (t : Fin cfg3.N) (i : S100000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v61).slice (win3_2.rect t)).set ↔ _
  rw [View.set_slice_whole, Rect.mem_set_unit]
  exact Iff.rfl

/-- Every row of the array lies in one of the twenty blocks of 5000 rows: row r in block r / 5000. -/
theorem cover3 (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have ht : (i 0).val / 5000 < cfg3.N := by rw [show cfg3.N = 20 from N_3]; omega
  refine ⟨⟨(i 0).val / 5000, ht⟩, flush3_2 _, ?_⟩
  obtain ⟨_, _, _, _, e4, e5⟩ := idx_facts3 ⟨(i 0).val / 5000, ht⟩
  have e4' : win3_2.index ⟨(i 0).val / 5000, ht⟩ (0 : Fin 2) = (i 0).val / 5000 := e4
  rw [mem_blk3]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    omega
  | ⟨1, _⟩ =>
    show win3_2.index ⟨(i 0).val / 5000, ht⟩ (1 : Fin 2) * 40 ≤ (i 1).val ∧ (i 1).val < win3_2.index ⟨(i 0).val / 5000, ht⟩ (1 : Fin 2) * 40 + 40
    omega

/-- The array after the region's twenty write-backs: the bias row added to every row of the entry array. -/
theorem final3 (c : Dev nD) :
    (dat3 (F := Ideal) V c).arrAt 2 cfg3.N = Cert.Gcn.bias2 (F := Ideal) (V c main_v59) (V c main_v60) :=
  (dat3 (F := Ideal) V c).arrAt_eq_of_cover 2 (Cert.Gcn.bias2 (F := Ideal) (V c main_v59) (V c main_v60))
    (fun t _ => flushed3_eq V c t) cover3

/-! ## Region 1: the first layer's bias row added to every row, then the maximum with zero -/

/-- The body's payload at row p, column q of a block: the maximum of the block's entry plus the bias row's entry in
    column q, and zero. -/
theorem pay1_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) (Ideal.ofBits .f32 0x00000000#32) := by
  unfold k1_pay1
  rw [shapeCast_self, shapeCast_self, maximumf_apply, addf_apply, broadcast_apply]
  congr 2
  refine broadcastTo_apply x1 _ (ix2 p q) (ix2 (0 : Fin 1) q) fun a => ?_
  match a with
  | ⟨0, _⟩ => rfl
  | ⟨1, _⟩ => rfl

/-- The whole-array operation at row p, column q: the same maximum. -/
theorem biasRelu_apply (a : FVec Ideal S100000x128 .f32) (b : FVec Ideal S1x128 .f32) (p : Fin 100000) (q : Fin 128) :
    Cert.Gcn.biasRelu (F := Ideal) a b (ix2 p q) = max (a (ix2 p q) + b (ix2 (0 : Fin 1) q)) (Ideal.ofBits .f32 0x00000000#32) := by
  unfold Cert.Gcn.biasRelu
  rw [maximumf_apply, addf_apply]
  congr 1
  congr 1
  refine broadcastInDim_apply _ _ b (ix2 p q) (ix2 (0 : Fin 1) q) fun a => ?_
  match a with
  | ⟨0, _⟩ => rfl
  | ⟨1, _⟩ => rfl

/-- One entry of a written block against one entry of the whole-array result: they agree when the block's entry is the
    array's at that place, the places share their column, and the block's bias row is the array's. -/
theorem point1 (x0 : Vec Ideal S5000x128 .f32) (x1 : Vec Ideal S1x128 .f32) (a : FVec Ideal S100000x128 .f32) (b : FVec Ideal S1x128 .f32)
    (j : S5000x128.Idx) (i : S100000x128.Idx) (hq : (i 1).val = (j 1).val)
    (h0 : x0 j = a i) (h1 : ∀ q : Fin 128, x1 (ix2 (0 : Fin 1) q) = b (ix2 (0 : Fin 1) q)) :
    k1_pay1 (F := Ideal) x0 x1 j = Cert.Gcn.biasRelu (F := Ideal) a b i := by
  obtain ⟨p, q, rfl⟩ : ∃ (p : Fin 5000) (q : Fin 128), j = ix2 p q := ⟨j 0, j 1, eq_ix2 j⟩
  obtain ⟨p', q', rfl⟩ : ∃ (p' : Fin 100000) (q' : Fin 128), i = ix2 p' q' := ⟨i 0, i 1, eq_ix2 i⟩
  obtain rfl : q' = q := Fin.ext hq
  rw [pay1_apply, biasRelu_apply, h0, h1]

/-- The index maps over the grid: the array's window and the result's window sit at block (t, 0), the bias row's at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array result. -/
theorem flushed1_eq (c : Dev nD) (t : Fin cfg1.N) :
    (dat1 (F := Ideal) V c).flushed 2 t = ((cfg1.win 2).blk t).view.read (Elt Ideal) (Cert.Gcn.biasRelu (F := Ideal) (V c main_v43) (V c main_v44)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S1x128) hz2]
  obtain ⟨e0, e1, e2, e3, e4, e5⟩ := idx_facts1 t
  funext j
  show k1_pay1 (F := Ideal) (iblk1 V c 0 t) (iblk1 V c 1 t) j = Cert.Gcn.biasRelu (F := Ideal) (V c main_v43) (V c main_v44) (((cfg1.win 2).blk t).view.emb j)
  refine point1 (iblk1 V c 0 t) (iblk1 V c 1 t) (V c main_v43) (V c main_v44) j (((cfg1.win 2).blk t).view.emb j) ?_ ?_ ?_
  · show win1_2.index t (1 : Fin 2) * 128 + 1 * (j 1).val = (j 1).val
    omega
  · show V c main_v43 (((cfg1.win 0).blk t).view.emb j) = V c main_v43 (((cfg1.win 2).blk t).view.emb j)
    refine congrArg (V c main_v43) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · intro q
    show V c main_v44 (((cfg1.win 1).blk t).view.emb (ix2 (0 : Fin 1) q)) = V c main_v44 (ix2 (0 : Fin 1) q)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega

/-- An index of the array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every row of the array lies in one of the twenty blocks of 5000 rows: row r in block r / 5000. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 5000 < cfg1.N := by rw [show cfg1.N = 20 from N_1]; omega
  refine ⟨⟨(i 0).val / 5000, ht⟩, flush1_2 _, ?_⟩
  obtain ⟨_, _, _, _, e4, e5⟩ := idx_facts1 ⟨(i 0).val / 5000, ht⟩
  have e4' : win1_2.index ⟨(i 0).val / 5000, ht⟩ (0 : Fin 2) = (i 0).val / 5000 := e4
  rw [mem_blk1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    omega

/-- The array after the region's twenty write-backs: the bias row added to every row of the entry array, then the
    maximum with zero. -/
theorem final1 (c : Dev nD) :
    (dat1 (F := Ideal) V c).arrAt 2 cfg1.N = Cert.Gcn.biasRelu (F := Ideal) (V c main_v43) (V c main_v44) :=
  (dat1 (F := Ideal) V c).arrAt_eq_of_cover 2 (Cert.Gcn.biasRelu (F := Ideal) (V c main_v43) (V c main_v44))
    (fun t _ => flushed1_eq V c t) cover1

end Cert.KernelIdeal.Closed

end
-- ==== Proof.KernelValue.lean ====
/-
  The idealized kernel's result as one function of its arguments.

  Four regions and the host operations between them, composed: the first region's output array is the whole matrix
  product of the node features and the first weights; the host operations after it aggregate that product over the
  messages; the second region adds the bias row and cuts off below at zero; the third is the second matrix product;
  the host operations after it aggregate again; the fourth adds the second bias row. Each region's array is read
  off its twenty write-backs as one whole-array function, each stretch off the fold of its operations, and the
  pieces chain through the boundary contents to the specification's two layers of the launch arguments.
-/
import Idealize.ShloMosaic.PureOps.Ideal
import proofs.«117723_j841813590223_1_alg».proof.Proof.KernelHost
import proofs.«117723_j841813590223_1_alg».proof.Proof.KernelRun
import proofs.«117723_j841813590223_1_alg».proof.Proof.DenseRegions
import proofs.«117723_j841813590223_1_alg».proof.Proof.BiasRegions
set_option maxRecDepth 16384

noncomputable section

namespace Cert.KernelIdeal.Whole

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first matrix product's result array: the whole product of the node features and the first weights. -/
theorem W4_v30 (c : Dev nD) : W4 m ρ c (Proc.devRef .tc main_v30)
    = Cert.Gcn.dense1 (F := Ideal) (m ((c : Thread nD τ).loc main_arg0)) (m ((c : Thread nD τ).loc main_arg2)) := by
  refine (W4_arr m ρ c 2).trans ((Closed.final0 (V3 m ρ) c).trans ?_)
  show Cert.Gcn.dense1 (F := Ideal) (W3 m ρ c (Proc.devRef .tc main_arg0)) (W3 m ρ c (Proc.devRef .tc main_arg2)) = _
  rw [W3_arg0 m ρ c, W3_arg2 m ρ c]

/-- The first layer's output: the aggregate of that product plus the bias row, cut off below at zero. -/
theorem W6_v45 (c : Dev nD) : W6 m ρ c (Proc.devRef .tc main_v45)
    = Cert.Gcn.biasRelu (F := Ideal) (Cert.Gcn.agg128 (F := Ideal) (Cert.Gcn.dense1 (F := Ideal) (m ((c : Thread nD τ).loc main_arg0)) (m ((c : Thread nD τ).loc main_arg2)))
        (m ((c : Thread nD τ).loc main_arg1))) (Cert.Gcn.row128 (F := Ideal) (m ((c : Thread nD τ).loc main_arg3))) := by
  refine (W6_arr m ρ c 2).trans ((Closed.final1 (V5 m ρ) c).trans ?_)
  show Cert.Gcn.biasRelu (F := Ideal) (W5 m ρ c (Proc.devRef .tc main_v43)) (W5 m ρ c (Proc.devRef .tc main_v44)) = _
  rw [W5_v43 m ρ c, W5_v44 m ρ c, W4_v30 m ρ c]

/-- The second matrix product's result array. -/
theorem W7_v46 (c : Dev nD) : W7 m ρ c (Proc.devRef .tc main_v46)
    = Cert.Gcn.dense2 (F := Ideal) (Cert.Gcn.biasRelu (F := Ideal) (Cert.Gcn.agg128 (F := Ideal) (Cert.Gcn.dense1 (F := Ideal) (m ((c : Thread nD τ).loc main_arg0)) (m ((c : Thread nD τ).loc main_arg2)))
        (m ((c : Thread nD τ).loc main_arg1))) (Cert.Gcn.row128 (F := Ideal) (m ((c : Thread nD τ).loc main_arg3)))) (m ((c : Thread nD τ).loc main_arg4)) := by
  refine (W7_arr m ρ c 2).trans ((Closed.final2 (V6 m ρ) c).trans ?_)
  show Cert.Gcn.dense2 (F := Ideal) (W6 m ρ c (Proc.devRef .tc main_v45)) (W6 m ρ c (Proc.devRef .tc main_arg4)) = _
  rw [W6_v45 m ρ c, W6_arg4 m ρ c]

/-- The result array: both layers of the specification, applied to the launch contents of the arguments. -/
theorem W9_v61 (c : Dev nD) : W9 m ρ c (Proc.devRef .tc main_v61)
    = Cert.Gcn.out (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W9_arr m ρ c 2).trans ((Closed.final3 (V8 m ρ) c).trans ?_)
  show Cert.Gcn.bias2 (F := Ideal) (W8 m ρ c (Proc.devRef .tc main_v59)) (W8 m ρ c (Proc.devRef .tc main_v60)) = _
  rw [W8_v59 m ρ c, W8_v60 m ρ c, W7_v46 m ρ c]
  rfl

/-- Every weakly fair execution of the idealized kernel terminates without a fault, with the result array at the
    specification's two layers of the arguments, and the arguments unchanged. -/
theorem run : θ_run defs (onTc (τ := τ) (main (F := Ideal))) ⟨m, fun _ => 0, ρ⟩ (fun r => ∀ c : Dev nD,
      r.2.mem ((c.tc : Thread nD τ).loc main_v61)
        = Cert.Gcn.out (F := Ideal) (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W9_v61 m ρ c), (h c).2⟩) (run_named m ρ)

end Cert.KernelIdeal.Whole

end
-- ==== Proof.RefRun.lean ====
/-
  The reference program read as a straight line.

  The reference's entry function is a sequence of host operations, given in two consecutive parts, and calls three
  small functions (a select against a broadcast scalar, twice, and a maximum with zero, once). Substituting each
  callee's three operations at its call gives 123 operations in order: 64 in the first part and 59 in the second.
  A straight line of host operations run from any memory with zero counters terminates with every buffer at the
  fold of the operations' results over the launch contents: that fold is the statement here; what the fold is
  at the result buffer, as a closed term of the six arguments, is the business of the module that imports this one.
-/
import proofs.«117723_j841813590223_1_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The first part's 64 operations, in order: the first layer's matrix product, the edge list's two rows each
    followed by the self-loops, the degree (a scatter-add of ones), its inverse square root where positive (the
    select's three operations are the first callee's), the two gathers of it and their product, the gather of the
    product's rows, their scaling, the scatter-add, the bias, the maximum with zero (the second callee's three
    operations), and the second layer's matrix product. -/
abbrev ops0 : List (HloOp τ sig (Elt F)) :=
  [ StableHlo.binary main_arg0 main_arg2 main_v0 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    StableHlo.nullary main_v1 (iotaInDim S100000 32 0),
    StableHlo.unary main_arg1 main_v2 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_v3 main_v1 main_v4 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v5 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v5 main_v6 rfl shapeCasts_S1x1600000_S1600000,
    StableHlo.binary main_v6 main_v1 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v8 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    TRef.unary (.of main_cst_2) main_call0.v0 id,
    TRef.unary main_call0.v0 main_call0.v1 (broadcastInDim S100000 ![] bcast_S_S100000),
    TRef.ternary (.of main_v13) (.of main_v14) main_call0.v1 main_call0.v2 select,
    StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v4 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v18 (broadcastInDim S1700000 ![] bcast_S_S1700000 : (⟨S_, .i32⟩ : BufTy).Contents (Elt F) → (⟨S1700000, .i32⟩ : BufTy).Contents (Elt F)),
    StableHlo.binary main_v4 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v4 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v7 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v25 (broadcastInDim S1700000 ![] bcast_S_S1700000 : (⟨S_, .i32⟩ : BufTy).Contents (Elt F) → (⟨S1700000, .i32⟩ : BufTy).Contents (Elt F)),
    StableHlo.binary main_v7 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)),
    StableHlo.unary main_v30 main_v31 (broadcastInDim S1700000x1 ![0] bcast_S1700000_S1700000x1_0 : (⟨S1700000, .f32⟩ : BufTy).Contents (Elt F) → (⟨S1700000x1, .f32⟩ : BufTy).Contents (Elt F)),
    StableHlo.nullary main_c_6 (constantI S_ 32 0#32),
    StableHlo.unary main_c_6 main_v32 (broadcastInDim S1700000 ![] bcast_S_S1700000 : (⟨S_, .i32⟩ : BufTy).Contents (Elt F) → (⟨S1700000, .i32⟩ : BufTy).Contents (Elt F)),
    StableHlo.binary main_v4 main_v32 main_v33 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v34 (broadcastInDim S1700000 ![] bcast_S_S1700000 : (⟨S_, .i32⟩ : BufTy).Contents (Elt F) → (⟨S1700000, .i32⟩ : BufTy).Contents (Elt F)),
    StableHlo.binary main_v4 main_v34 main_v35 (addi : (⟨S1700000, .i32⟩ : BufTy).Contents (Elt F) → (⟨S1700000, .i32⟩ : BufTy).Contents (Elt F) → (⟨S1700000, .i32⟩ : BufTy).Contents (Elt F)),
    StableHlo.ternary main_v33 main_v35 main_v4 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v36 main_v37 (broadcastInDim S1700000x1 ![0] bcast_S1700000_S1700000x1_0 : (⟨S1700000, .i32⟩ : BufTy).Contents (Elt F) → (⟨S1700000x1, .i32⟩ : BufTy).Contents (Elt F)),
    StableHlo.binary main_v0 main_v37 main_v38 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v31 main_v39 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v39 main_v38 main_v40 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v41 (broadcastInDim S100000x128 ![] bcast_S_S100000x128 : (⟨S_, .f32⟩ : BufTy).Contents (Elt F) → (⟨S100000x128, .f32⟩ : BufTy).Contents (Elt F)),
    StableHlo.unary main_v7 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v46) main_call1.v0 main_call1.v1 maximumf,
    StableHlo.binary main_v47 main_arg4 main_v48 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) ]

/-- The second part's 59 operations, in order: the same edge-list quantities computed again, the gather of the
    second product's rows, their scaling, the scatter-add and the bias. -/
abbrev ops1 : List (HloOp τ sig (Elt F)) :=
  [ StableHlo.nullary main_v49 (iotaInDim S100000 32 0),
    StableHlo.unary main_arg1 main_v50 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v50 main_v51 rfl shapeCasts_S1x1600000_S1600000,
    StableHlo.binary main_v51 main_v49 main_v52 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v53 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v53 main_v54 rfl shapeCasts_S1x1600000_S1600000,
    StableHlo.binary main_v54 main_v49 main_v55 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_9 (constant S_ .f32 0x3F800000#32),
    StableHlo.unary main_cst_9 main_v56 (broadcastInDim S1700000 ![] bcast_S_S1700000 : (⟨S_, .f32⟩ : BufTy).Contents (Elt F) → (⟨S1700000, .f32⟩ : BufTy).Contents (Elt F)),
    StableHlo.nullary main_cst_10 (constant S_ .f32 0x00000000#32),
    StableHlo.unary main_cst_10 main_v57 (broadcastInDim S100000 ![] bcast_S_S100000 : (⟨S_, .f32⟩ : BufTy).Contents (Elt F) → (⟨S100000, .f32⟩ : BufTy).Contents (Elt F)),
    StableHlo.unary main_v55 main_v58 (broadcastInDim S1700000x1 ![0] bcast_S1700000_S1700000x1_0 : (⟨S1700000, .i32⟩ : BufTy).Contents (Elt F) → (⟨S1700000x1, .i32⟩ : BufTy).Contents (Elt F)),
    StableHlo.ternary main_v57 main_v58 main_v56 main_v59 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_11 (constant S_ .f32 0x00000000#32),
    StableHlo.unary main_cst_11 main_v60 (broadcastInDim S100000 ![] bcast_S_S100000 : (⟨S_, .f32⟩ : BufTy).Contents (Elt F) → (⟨S100000, .f32⟩ : BufTy).Contents (Elt F)),
    StableHlo.binary main_v59 main_v60 main_v61 (cmpf .ogt : (⟨S100000, .f32⟩ : BufTy).Contents (Elt F) → (⟨S100000, .f32⟩ : BufTy).Contents (Elt F) → (⟨S100000, .i1⟩ : BufTy).Contents (Elt F)),
    StableHlo.unary main_v59 main_v62 (Host.rsqrt : (⟨S100000, .f32⟩ : BufTy).Contents (Elt F) → (⟨S100000, .f32⟩ : BufTy).Contents (Elt F)),
    StableHlo.nullary main_cst_12 (constant S_ .f32 0x00000000#32),
    TRef.unary (.of main_cst_12) main_call2.v0 id,
    TRef.unary main_call2.v0 main_call2.v1 (broadcastInDim S100000 ![] bcast_S_S100000),
    TRef.ternary (.of main_v61) (.of main_v62) main_call2.v1 main_call2.v2 select,
    StableHlo.nullary main_c_13 (constantI S_ 32 0#32),
    StableHlo.unary main_c_13 main_v64 (broadcastInDim S1700000 ![] bcast_S_S1700000 : (⟨S_, .i32⟩ : BufTy).Contents (Elt F) → (⟨S1700000, .i32⟩ : BufTy).Contents (Elt F)),
    StableHlo.binary main_v52 main_v64 main_v65 (cmpi .slt : (⟨S1700000, .i32⟩ : BufTy).Contents (Elt F) → (⟨S1700000, .i32⟩ : BufTy).Contents (Elt F) → (⟨S1700000, .i1⟩ : BufTy).Contents (Elt F)),
    StableHlo.nullary main_c_14 (constantI S_ 32 100000#32),
    StableHlo.unary main_c_14 main_v66 (broadcastInDim S1700000 ![] bcast_S_S1700000 : (⟨S_, .i32⟩ : BufTy).Contents (Elt F) → (⟨S1700000, .i32⟩ : BufTy).Contents (Elt F)),
    StableHlo.binary main_v52 main_v66 main_v67 (addi : (⟨S1700000, .i32⟩ : BufTy).Contents (Elt F) → (⟨S1700000, .i32⟩ : BufTy).Contents (Elt F) → (⟨S1700000, .i32⟩ : BufTy).Contents (Elt F)),
    StableHlo.ternary main_v65 main_v67 main_v52 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v68 main_v69 (broadcastInDim S1700000x1 ![0] bcast_S1700000_S1700000x1_0 : (⟨S1700000, .i32⟩ : BufTy).Contents (Elt F) → (⟨S1700000x1, .i32⟩ : BufTy).Contents (Elt F)),
    StableHlo.binary main_v63 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_15 (constantI S_ 32 0#32),
    StableHlo.unary main_c_15 main_v71 (broadcastInDim S1700000 ![] bcast_S_S1700000 : (⟨S_, .i32⟩ : BufTy).Contents (Elt F) → (⟨S1700000, .i32⟩ : BufTy).Contents (Elt F)),
    StableHlo.binary main_v55 main_v71 main_v72 (cmpi .slt : (⟨S1700000, .i32⟩ : BufTy).Contents (Elt F) → (⟨S1700000, .i32⟩ : BufTy).Contents (Elt F) → (⟨S1700000, .i1⟩ : BufTy).Contents (Elt F)),
    StableHlo.nullary main_c_16 (constantI S_ 32 100000#32),
    StableHlo.unary main_c_16 main_v73 (broadcastInDim S1700000 ![] bcast_S_S1700000 : (⟨S_, .i32⟩ : BufTy).Contents (Elt F) → (⟨S1700000, .i32⟩ : BufTy).Contents (Elt F)),
    StableHlo.binary main_v55 main_v73 main_v74 (addi : (⟨S1700000, .i32⟩ : BufTy).Contents (Elt F) → (⟨S1700000, .i32⟩ : BufTy).Contents (Elt F) → (⟨S1700000, .i32⟩ : BufTy).Contents (Elt F)),
    StableHlo.ternary main_v72 main_v74 main_v55 main_v75 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v75 main_v76 (broadcastInDim S1700000x1 ![0] bcast_S1700000_S1700000x1_0 : (⟨S1700000, .i32⟩ : BufTy).Contents (Elt F) → (⟨S1700000x1, .i32⟩ : BufTy).Contents (Elt F)),
    StableHlo.binary main_v63 main_v76 main_v77 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v70 main_v77 main_v78 (mulf : (⟨S1700000, .f32⟩ : BufTy).Contents (Elt F) → (⟨S1700000, .f32⟩ : BufTy).Contents (Elt F) → (⟨S1700000, .f32⟩ : BufTy).Contents (Elt F)),
    StableHlo.unary main_v78 main_v79 (broadcastInDim S1700000x1 ![0] bcast_S1700000_S1700000x1_0 : (⟨S1700000, .f32⟩ : BufTy).Contents (Elt F) → (⟨S1700000x1, .f32⟩ : BufTy).Contents (Elt F)),
    StableHlo.nullary main_c_17 (constantI S_ 32 0#32),
    StableHlo.unary main_c_17 main_v80 (broadcastInDim S1700000 ![] bcast_S_S1700000 : (⟨S_, .i32⟩ : BufTy).Contents (Elt F) → (⟨S1700000, .i32⟩ : BufTy).Contents (Elt F)),
    StableHlo.binary main_v52 main_v80 main_v81 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v82 (broadcastInDim S1700000 ![] bcast_S_S1700000 : (⟨S_, .i32⟩ : BufTy).Contents (Elt F) → (⟨S1700000, .i32⟩ : BufTy).Contents (Elt F)),
    StableHlo.binary main_v52 main_v82 main_v83 (addi : (⟨S1700000, .i32⟩ : BufTy).Contents (Elt F) → (⟨S1700000, .i32⟩ : BufTy).Contents (Elt F) → (⟨S1700000, .i32⟩ : BufTy).Contents (Elt F)),
    StableHlo.ternary main_v81 main_v83 main_v52 main_v84 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v84 main_v85 (broadcastInDim S1700000x1 ![0] bcast_S1700000_S1700000x1_0 : (⟨S1700000, .i32⟩ : BufTy).Contents (Elt F) → (⟨S1700000x1, .i32⟩ : BufTy).Contents (Elt F)),
    StableHlo.binary main_v48 main_v85 main_v86 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    StableHlo.unary main_v79 main_v87 (broadcastInDim S1700000x40 ![0, 1] bcast_S1700000x1_S1700000x40_0_1 : (⟨S1700000x1, .f32⟩ : BufTy).Contents (Elt F) → (⟨S1700000x40, .f32⟩ : BufTy).Contents (Elt F)),
    StableHlo.binary main_v87 main_v86 main_v88 (mulf : (⟨S1700000x40, .f32⟩ : BufTy).Contents (Elt F) → (⟨S1700000x40, .f32⟩ : BufTy).Contents (Elt F) → (⟨S1700000x40, .f32⟩ : BufTy).Contents (Elt F)),
    StableHlo.nullary main_cst_19 (constant S_ .f32 0x00000000#32),
    StableHlo.unary main_cst_19 main_v89 (broadcastInDim S100000x40 ![] bcast_S_S100000x40 : (⟨S_, .f32⟩ : BufTy).Contents (Elt F) → (⟨S100000x40, .f32⟩ : BufTy).Contents (Elt F)),
    StableHlo.unary main_v55 main_v90 (broadcastInDim S1700000x1 ![0] bcast_S1700000_S1700000x1_0 : (⟨S1700000, .i32⟩ : BufTy).Contents (Elt F) → (⟨S1700000x1, .i32⟩ : BufTy).Contents (Elt F)),
    StableHlo.ternary main_v89 main_v90 main_v88 main_v91 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    StableHlo.unary main_arg5 main_v92 (broadcastInDim S1x40 ![1] bcast_S40_S1x40_1 : (⟨S40, .f32⟩ : BufTy).Contents (Elt F) → (⟨S1x40, .f32⟩ : BufTy).Contents (Elt F)),
    StableHlo.unary main_v92 main_v93 (broadcastInDim S100000x40 ![0, 1] bcast_S1x40_S100000x40_0_1 : (⟨S1x40, .f32⟩ : BufTy).Contents (Elt F) → (⟨S100000x40, .f32⟩ : BufTy).Contents (Elt F)),
    StableHlo.binary main_v91 main_v93 main_v94 (addf : (⟨S100000x40, .f32⟩ : BufTy).Contents (Elt F) → (⟨S100000x40, .f32⟩ : BufTy).Contents (Elt F) → (⟨S100000x40, .f32⟩ : BufTy).Contents (Elt F)) ]

/-- All 123 operations, in order. -/
abbrev ops : List (HloOp τ sig (Elt F)) := ops0 ++ ops1

set_option maxRecDepth 8192 in
set_option maxHeartbeats 4000000 in
/-- The first part is its operations run in order: the callees' definitions unfold at their calls. -/
theorem part0_eq (c : Dev nD) : main_part0 (F := F) c = seq ops0 := rfl

set_option maxRecDepth 8192 in
set_option maxHeartbeats 4000000 in
/-- The second part likewise. -/
theorem part1_eq (c : Dev nD) : main_part1 (F := F) c = seq ops1 := rfl

/-- The entry function is the two parts in order, so the whole list run in order. -/
theorem main_eq (c : Dev nD) : main (F := F) c = seq ops := by
  simp only [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨binary_bufs_sub .., nullary_bufs_sub .., unary_bufs_sub .., reshape_bufs_sub .., binary_bufs_sub .., unary_bufs_sub ..,
    reshape_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., binary_bufs_sub ..⟩

set_option maxRecDepth 8192 in
theorem ops1_sub : (ops1 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., unary_bufs_sub .., unary_bufs_sub .., binary_bufs_sub ..⟩

/-- Every operation reads and writes device buffers only. -/
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- The fold over two lists joined is the second's fold after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over the whole list is the second part's fold after the first's. -/
theorem after_ops (V : Valuation τ sig (Elt F)) : after ops V = after ops1 (after ops0 V) :=
  after_append ops0 ops1 V

/-- From any memory with zero counters, every weakly fair execution of the reference terminates, and every final
    state has each buffer of each device at the fold of the 123 operations over that device's launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefValue.lean ====
/-
  What the reference computes, as one term of its six arguments.

  The fold of the reference's 123 host operations over the launch contents, read at the result buffer, is the two
  graph-convolution layers of the common specification applied to the six arguments; read at an argument's buffer it
  is the argument. The fold is read in the program's two parts. The second part computes, from the second layer's
  matrix product, the edge list and the second bias, the aggregation of the product's rows plus the bias row; the
  first part computes that matrix product from the features, the edge list, the two weight matrices and the first
  bias. Each part computes the edge list's quantities (sources, targets, degrees, weights) for itself, from the same
  two rows of the edge list, so both are the specification's terms of that one argument. The select against a
  broadcast scalar first converts the scalar to its own type, which is the identity.
-/
import proofs.«117723_j841813590223_1_alg».proof.Proof.RefRun
import proofs.«117723_j841813590223_1_alg».proof.Proof.Spec
import Idealize.ShloMosaic.PureOps.Ideal

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## The second part -/

set_option maxRecDepth 8192 in
set_option maxHeartbeats 50000000 in
/-- The second part's result: the aggregation of the second product's rows plus the second bias row. -/
theorem ops1_v94 (W : Valuation τ sig (Elt F)) :
    after ops1 W (Proc.devRef .tc main_v94)
      = Cert.Gcn.bias2 (Cert.Gcn.agg40 (W (Proc.devRef .tc main_v48)) (W (Proc.devRef .tc main_arg1)))
          (Cert.Gcn.row40 (W (Proc.devRef .tc main_arg5))) := by
  simp only [ops1]
  after_results_simp
  rfl

set_option maxRecDepth 8192 in
set_option maxHeartbeats 50000000 in
theorem ops1_arg0 (W : Valuation τ sig (Elt F)) :
    after ops1 W (Proc.devRef .tc main_arg0) = W (Proc.devRef .tc main_arg0) := by
  simp only [ops1]
  after_results_simp

set_option maxRecDepth 8192 in
set_option maxHeartbeats 50000000 in
theorem ops1_arg1 (W : Valuation τ sig (Elt F)) :
    after ops1 W (Proc.devRef .tc main_arg1) = W (Proc.devRef .tc main_arg1) := by
  simp only [ops1]
  after_results_simp

set_option maxRecDepth 8192 in
set_option maxHeartbeats 50000000 in
theorem ops1_arg2 (W : Valuation τ sig (Elt F)) :
    after ops1 W (Proc.devRef .tc main_arg2) = W (Proc.devRef .tc main_arg2) := by
  simp only [ops1]
  after_results_simp

set_option maxRecDepth 8192 in
set_option maxHeartbeats 50000000 in
theorem ops1_arg3 (W : Valuation τ sig (Elt F)) :
    after ops1 W (Proc.devRef .tc main_arg3) = W (Proc.devRef .tc main_arg3) := by
  simp only [ops1]
  after_results_simp

set_option maxRecDepth 8192 in
set_option maxHeartbeats 50000000 in
theorem ops1_arg4 (W : Valuation τ sig (Elt F)) :
    after ops1 W (Proc.devRef .tc main_arg4) = W (Proc.devRef .tc main_arg4) := by
  simp only [ops1]
  after_results_simp

set_option maxRecDepth 8192 in
set_option maxHeartbeats 50000000 in
theorem ops1_arg5 (W : Valuation τ sig (Elt F)) :
    after ops1 W (Proc.devRef .tc main_arg5) = W (Proc.devRef .tc main_arg5) := by
  simp only [ops1]
  after_results_simp

/-! ## The first part -/

set_option maxRecDepth 8192 in
set_option maxHeartbeats 50000000 in
/-- The first part's last result: the second layer's matrix product of the first layer's output. -/
theorem ops0_v48 (V : Valuation τ sig (Elt F)) :
    after ops0 V (Proc.devRef .tc main_v48)
      = Cert.Gcn.dense2 (Cert.Gcn.biasRelu (Cert.Gcn.agg128 (Cert.Gcn.dense1 (V (Proc.devRef .tc main_arg0)) (V (Proc.devRef .tc main_arg2)))
            (V (Proc.devRef .tc main_arg1))) (Cert.Gcn.row128 (V (Proc.devRef .tc main_arg3)))) (V (Proc.devRef .tc main_arg4)) := by
  simp only [ops0]
  after_results_simp
  rfl

set_option maxRecDepth 8192 in
set_option maxHeartbeats 50000000 in
theorem ops0_arg0 (V : Valuation τ sig (Elt F)) :
    after ops0 V (Proc.devRef .tc main_arg0) = V (Proc.devRef .tc main_arg0) := by
  simp only [ops0]
  after_results_simp

set_option maxRecDepth 8192 in
set_option maxHeartbeats 50000000 in
theorem ops0_arg1 (V : Valuation τ sig (Elt F)) :
    after ops0 V (Proc.devRef .tc main_arg1) = V (Proc.devRef .tc main_arg1) := by
  simp only [ops0]
  after_results_simp

set_option maxRecDepth 8192 in
set_option maxHeartbeats 50000000 in
theorem ops0_arg2 (V : Valuation τ sig (Elt F)) :
    after ops0 V (Proc.devRef .tc main_arg2) = V (Proc.devRef .tc main_arg2) := by
  simp only [ops0]
  after_results_simp

set_option maxRecDepth 8192 in
set_option maxHeartbeats 50000000 in
theorem ops0_arg3 (V : Valuation τ sig (Elt F)) :
    after ops0 V (Proc.devRef .tc main_arg3) = V (Proc.devRef .tc main_arg3) := by
  simp only [ops0]
  after_results_simp

set_option maxRecDepth 8192 in
set_option maxHeartbeats 50000000 in
theorem ops0_arg4 (V : Valuation τ sig (Elt F)) :
    after ops0 V (Proc.devRef .tc main_arg4) = V (Proc.devRef .tc main_arg4) := by
  simp only [ops0]
  after_results_simp

set_option maxRecDepth 8192 in
set_option maxHeartbeats 50000000 in
theorem ops0_arg5 (V : Valuation τ sig (Elt F)) :
    after ops0 V (Proc.devRef .tc main_arg5) = V (Proc.devRef .tc main_arg5) := by
  simp only [ops0]
  after_results_simp

/-! ## The whole line -/

/-- The fold of all 123 operations at the result buffer: the two layers of the six arguments. -/
theorem value (V : Valuation τ sig (Elt F)) :
    after ops V (Proc.devRef .tc main_v94)
      = Cert.Gcn.out (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_ops, ops1_v94, ops0_v48, ops0_arg1, ops0_arg5]
  rfl

/-- The fold of all 123 operations leaves argument 0 as it was. -/
theorem keep_arg0 (V : Valuation τ sig (Elt F)) : after ops V (Proc.devRef .tc main_arg0) = V (Proc.devRef .tc main_arg0) := by
  rw [after_ops, ops1_arg0, ops0_arg0]

/-- The fold of all 123 operations leaves argument 1 as it was. -/
theorem keep_arg1 (V : Valuation τ sig (Elt F)) : after ops V (Proc.devRef .tc main_arg1) = V (Proc.devRef .tc main_arg1) := by
  rw [after_ops, ops1_arg1, ops0_arg1]

/-- The fold of all 123 operations leaves argument 2 as it was. -/
theorem keep_arg2 (V : Valuation τ sig (Elt F)) : after ops V (Proc.devRef .tc main_arg2) = V (Proc.devRef .tc main_arg2) := by
  rw [after_ops, ops1_arg2, ops0_arg2]

/-- The fold of all 123 operations leaves argument 3 as it was. -/
theorem keep_arg3 (V : Valuation τ sig (Elt F)) : after ops V (Proc.devRef .tc main_arg3) = V (Proc.devRef .tc main_arg3) := by
  rw [after_ops, ops1_arg3, ops0_arg3]

/-- The fold of all 123 operations leaves argument 4 as it was. -/
theorem keep_arg4 (V : Valuation τ sig (Elt F)) : after ops V (Proc.devRef .tc main_arg4) = V (Proc.devRef .tc main_arg4) := by
  rw [after_ops, ops1_arg4, ops0_arg4]

/-- The fold of all 123 operations leaves argument 5 as it was. -/
theorem keep_arg5 (V : Valuation τ sig (Elt F)) : after ops V (Proc.devRef .tc main_arg5) = V (Proc.devRef .tc main_arg5) := by
  rw [after_ops, ops1_arg5, ops0_arg5]

/-- For any float values, from any memory with zero counters: every weakly fair execution of the reference
    terminates with the result buffer at the two layers of the six arguments, and the arguments unchanged. -/
theorem run_gen (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩
      (fun r => ∀ c : Dev nD,
        r.2.mem ((c.tc : Thread nD τ).loc main_v94) = Cert.Gcn.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run defs _ _).mono (fun _ h c => ⟨(h c main_v94).trans (value (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c))⟩)
    (run_all m ρ)

/-- The same at the ideal instance: floats extended reals, every operation exact. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v94) = Cert.Gcn.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  run_gen m ρ

end Cert.RefSide

end
-- ==== Proof.lean ====
/-
  A two-layer graph convolution computed two ways, equal over the extended reals.

  Both programs compute, from node features x, an edge list e, weights W1, W2 and biases b1, b2,

      out = A(relu(A(x · W1) + b1) · W2) + b2,

  where A adds up, at every node, the rows of its incoming messages (the edges and one self-loop per node), each
  scaled by the inverse square roots of the degrees of its two ends. The kernel carries out the two matrix products
  and the two bias steps block by block, 5000 rows at a time, and leaves the aggregation A to the same host
  operations the reference uses; over the extended reals a block of a product is the product's rows of that block
  (a sum over the contracted axis, entry by entry), a block of a bias step is the whole step's rows, and narrowing a
  float format changes nothing, so both programs end at one function of the arguments, `Cert.Gcn.out`.
  No law used here needs the inputs finite.

  The frames of the two kernels are the generated ones; the reference's frame is its run with the result dropped;
  the idealization rewrote no operation, so nothing is owed for it.
-/
import proofs.«117723_j841813590223_1_alg».proof.Defs
import proofs.«117723_j841813590223_1_alg».proof.Proof.Gen.Kernel
import proofs.«117723_j841813590223_1_alg».proof.Proof.Gen.Kernel.Skeleton
import proofs.«117723_j841813590223_1_alg».proof.Proof.Gen.Kernel.Launch
import proofs.«117723_j841813590223_1_alg».proof.Proof.Gen.Kernel.Points
import proofs.«117723_j841813590223_1_alg».proof.Proof.Gen.Kernel.Frame
import proofs.«117723_j841813590223_1_alg».proof.Proof.Gen.KernelIdeal
import proofs.«117723_j841813590223_1_alg».proof.Proof.Gen.KernelIdeal.Skeleton
import proofs.«117723_j841813590223_1_alg».proof.Proof.Gen.KernelIdeal.Launch
import proofs.«117723_j841813590223_1_alg».proof.Proof.Gen.KernelIdeal.Points
import proofs.«117723_j841813590223_1_alg».proof.Proof.Gen.KernelIdeal.Frame
import proofs.«117723_j841813590223_1_alg».proof.Proof.Gen.ReferenceIdeal
import proofs.«117723_j841813590223_1_alg».proof.Proof.Gen.Pre_finite_inputs
import proofs.«117723_j841813590223_1_alg».proof.Proof.KernelValue
import proofs.«117723_j841813590223_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates without a fault and leaves its arguments alone: its run, the result forgotten. -/
theorem frame_referenceIdeal : Cert.frame_ReferenceIdeal := fun m ρ _ =>
  (θ_run Cert.ReferenceIdeal.defs _ _).mono (fun _ h c => (h c).2) (Cert.RefSide.run m ρ)

theorem preserves : Cert.preserves_Kernel_KernelIdeal := trivial

/-- From memories that agree on the arguments both programs end with the result array at the specification's two
    layers of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩) (Cert.RefSide.run m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
